-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x8193 : Shape := ⟨2, ![4096, 8193]⟩
abbrev S4096x8193x3 : Shape := ⟨3, ![4096, 8193, 3]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x8193 : S_.BroadcastsInDim S4096x8193 (![] : Fin 0 → Fin S4096x8193.rank)
  reducesTo_S4096x8193_S_d0_1 : S4096x8193.ReducesTo [0, 1] S_
  bcast_S_S4096x8193x3 : S_.BroadcastsInDim S4096x8193x3 (![] : Fin 0 → Fin S4096x8193x3.rank)
  reducesTo_S4096x8193x3_S_d0_1_2 : S4096x8193x3.ReducesTo [0, 1, 2] S_

variable [Facts]

def fn {F : FTy → Type} [FloatOps F] (main_arg0 : FVec F S4096 .f32) (main_arg1 : FVec F S4096x8193 .f32) (main_arg2 : FVec F S4096x8193x3 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x8193 .f32 := Host.absf main_arg1
  let main_cst_0 : FVec F S_ .f32 := constant S_ .f32 0x7F800000#32
  let main_v5 : FVec F S4096x8193 .f32 := broadcastInDim S4096x8193 ![] bcast_S_S4096x8193 main_cst_0
  let main_v6 : IVec S4096x8193 1 := cmpf .olt main_v4 main_v5
  let main_c_1 : IVec S_ 1 := constantI S_ 1 1#1
  let main_v7 : IVec S_ 1 := (fun x v => Host.reduce IntOp.andi x v reducesTo_S4096x8193_S_d0_1 h_S_) main_v6 main_c_1
  let main_v8 : IVec S_ 1 := andi main_v3 main_v7
  let main_v9 : FVec F S4096x8193x3 .f32 := Host.absf main_arg2
  let main_cst_2 : FVec F S_ .f32 := constant S_ .f32 0x7F800000#32
  let main_v10 : FVec F S4096x8193x3 .f32 := broadcastInDim S4096x8193x3 ![] bcast_S_S4096x8193x3 main_cst_2
  let main_v11 : IVec S4096x8193x3 1 := cmpf .olt main_v9 main_v10
  let main_c_3 : IVec S_ 1 := constantI S_ 1 1#1
  let main_v12 : IVec S_ 1 := (fun x v => Host.reduce IntOp.andi x v reducesTo_S4096x8193x3_S_d0_1_2 h_S_) main_v11 main_c_3
  let main_v13 : IVec S_ 1 := andi main_v8 main_v12
  main_v13
-- ==== Kernel.lean ====
abbrev S4096 : Shape := ⟨1, ![4096]⟩
abbrev S4096x8193 : Shape := ⟨2, ![4096, 8193]⟩
abbrev S4096x8193x3 : Shape := ⟨3, ![4096, 8193, 3]⟩
abbrev S4096x1 : Shape := ⟨2, ![4096, 1]⟩
abbrev S4096x1x3 : Shape := ⟨3, ![4096, 1, 3]⟩
abbrev S4096x3 : Shape := ⟨2, ![4096, 3]⟩
abbrev S_ : Shape := ⟨0, ![]⟩
abbrev S1x1 : Shape := ⟨2, ![1, 1]⟩
abbrev S1x4096 : Shape := ⟨2, ![1, 4096]⟩
abbrev S1 : Shape := ⟨1, ![1]⟩

abbrev nBuf : Space → Nat
  | .hbm => 11
  | .vmem => 4
  | .smem => 0
  | _ => 0

abbrev bufTy : (tb : Table) → Fin (tcTables nBuf tb) → BufTy
  | .hbm, ⟨0, _⟩ => ⟨S4096, .f32⟩
  | .hbm, ⟨1, _⟩ => ⟨S4096x8193, .f32⟩
  | .hbm, ⟨2, _⟩ => ⟨S4096x8193x3, .f32⟩
  | .hbm, ⟨3, _⟩ => ⟨S4096x1, .f32⟩
  | .hbm, ⟨4, _⟩ => ⟨S4096, .f32⟩
  | .hbm, ⟨5, _⟩ => ⟨S4096x1x3, .f32⟩
  | .hbm, ⟨6, _⟩ => ⟨S4096x3, .f32⟩
  | .hbm, ⟨7, _⟩ => ⟨S_, .f32⟩
  | .hbm, ⟨8, _⟩ => ⟨S4096, .f32⟩
  | .hbm, ⟨9, _⟩ => ⟨S1x1, .f32⟩
  | .hbm, ⟨10, _⟩ => ⟨S_, .f32⟩
  | .local _ .vmem, ⟨0, _⟩ => ⟨S4096, .f32⟩
  | .local _ .vmem, ⟨1, _⟩ => ⟨S4096, .f32⟩
  | .local _ .vmem, ⟨2, _⟩ => ⟨S4096, .f32⟩
  | .local _ .vmem, ⟨3, _⟩ => ⟨S1x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S4096x8193_S4096x1_0_8192 : S4096x8193.Slices ![0, 8192] S4096x1
  shapeCasts_S4096x1_S4096 : S4096x1.ShapeCasts S4096
  slices_S4096x8193x3_S4096x1x3_0_8192_0 : S4096x8193x3.Slices ![0, 8192, 0] S4096x1x3
  shapeCasts_S4096x1x3_S4096x3 : S4096x1x3.ShapeCasts S4096x3
  reducesTo_S4096x3_S4096_d1 : S4096x3.ReducesTo [1] S4096
  h_S_ : 0 < S_.numel
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S4096.size a
  hwx0_0 : ∀ i : grid0.Coords, EltTy.bits .f32 = 32 ∨ (Rect.block (s := S4096) S4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096 : Shape := ⟨1, ![4096]⟩
abbrev S4096x8193 : Shape := ⟨2, ![4096, 8193]⟩
abbrev S4096x8193x3 : Shape := ⟨3, ![4096, 8193, 3]⟩
abbrev S4096x1x3 : Shape := ⟨3, ![4096, 1, 3]⟩
abbrev S4096x3 : Shape := ⟨2, ![4096, 3]⟩
abbrev S_ : Shape := ⟨0, ![]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x8193, .f32⟩
  | .hbm, ⟨2, _⟩ => ⟨S4096x8193x3, .f32⟩
  | .hbm, ⟨3, _⟩ => ⟨S4096, .f32⟩
  | .hbm, ⟨4, _⟩ => ⟨S4096x1x3, .f32⟩
  | .hbm, ⟨5, _⟩ => ⟨S4096x3, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  slices_S4096x8193x3_S4096x1x3_0_8192_0 : S4096x8193x3.Slices ![0, 8192, 0] S4096x1x3
  shapeCasts_S4096x1x3_S4096x3 : S4096x1x3.ShapeCasts S4096x3
  reducesTo_S4096x3_S4096_d1 : S4096x3.ReducesTo [1] S4096
  h_S_ : 0 < S_.numel
  slices_S4096x8193_S4096x1_0_8192 : S4096x8193.Slices ![0, 8192] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.KanSum.lean ====
/-
  The number both programs compute, as one function of three vectors of length 4096 over the extended reals:

      total x w s = Σ_j  w j · ( x j · σ(x j) + sin(x j) · s j ),        σ(a) = 1 / (1 + e^(-a)).

  `x` is the input vector, `w` the last column of the weight matrix and `s` the row sums of the last column of the
  coefficient tensor.  Also here: the logistic function written out with the word of the float `1.0`, which is how a
  host program spells it (negate, exponential, add one, divide one by it).
-/
import Idealize.ShloMosaic.PureOps.Ideal
import Idealize.ShloMosaic.PureOps.Ideal.Laws
import Idealize.ShloMosaic.Lib.ValueIdx

noncomputable section

namespace Cert.KanSum

open Idealize.ShloMosaic

/-- The index set of a vector of length 4096. -/
abbrev V4096 : Shape := ⟨1, ![4096]⟩

/-- One summand: `w · (x · σ(x) + sin x · s)`. -/
def term (x w s : EReal) : EReal := w * (x * Ideal.logistic x + Ideal.sin x * s)

/-- The weighted sum of the activations over all 4096 entries. -/
def total (x w s : V4096.Idx → EReal) : EReal := ∑ j : V4096.Idx, term (x j) (w j) (s j)

/-- The word `0x3F800000` is the float `1.0`, the extended real `1`. -/
theorem ofBits_one_f32 : Ideal.ofBits .f32 0x3F800000#32 = 1 := IdealRules.sign_bit.ideal_onePat .f32

/-- `1 / (1 + e^(-a))` spelt with the word of `1.0` is the logistic function, at every extended real. -/
theorem div_one_add_exp_neg (a : EReal) :
    Ideal.div (Ideal.ofBits .f32 0x3F800000#32) (Ideal.ofBits .f32 0x3F800000#32 + Ideal.exp (-a)) = Ideal.logistic a := by
  rw [ofBits_one_f32]; rfl

end Cert.KanSum

end
-- ==== Proof.KernelPayload.lean ====
/-
  What the kernel body stores, read at its one entry.

  The body loads the three vectors x, w, s (each of length 4096), forms  w · (x · σ(x) + sin x · s)  entry by entry,
  views the result as one row of 4096 lanes, adds the lanes up into a single number, and stores that number as a
  1 × 1 block.  Over the extended reals the lane sum into a shape all of whose axes have extent one is the sum over
  every entry of the row, and a row is its vector read in row-major order, so the stored number is `KanSum.total x w s`.
-/
import proofs.«104511_j27101243638027_2_alg».proof.Proof.Gen.KernelIdeal.Skeleton
import proofs.«104511_j27101243638027_2_alg».proof.Proof.KanSum
import Idealize.ShloMosaic.Lib.Pipeline.Value
import Idealize.ShloMosaic.PureOps.Ideal.Laws

noncomputable section

namespace Cert.KernelIdeal.Payload

open Idealize.ShloMosaic Cert.KernelIdeal Cert.KernelIdeal.Gen Cert.KanSum

/-- The entrywise product `w · (x · σ(x) + sin x · s)` the body forms before it adds the lanes up. -/
def prod (x w s : FVec Ideal S4096 .f32) : FVec Ideal S4096 .f32 :=
  mulf (shapeCast S4096 w shapeCasts_S4096_S4096)
    (addf (mulf x (logistic x)) (mulf (sin x) (shapeCast S4096 s shapeCasts_S4096_S4096)))

/-- Entry `j` of that product is the summand of `total` at `j`. -/
theorem prod_apply (x w s : FVec Ideal S4096 .f32) (j : S4096.Idx) : prod x w s j = term (x j) (w j) (s j) := by
  unfold prod term
  rw [shapeCast_self, shapeCast_self]
  rfl

/-- Every entry of the stored 1 × 1 block is the weighted sum over all 4096 entries. -/
theorem pay_apply (x w s : FVec Ideal S4096 .f32) (i : S1x1.Idx) :
    k0_pay1 (F := Ideal) x w s i = total x w s := by
  unfold k0_pay1
  refine (Ideal.multiReduction_add_total (shapeCast S1x4096 (prod x w s) shapeCasts_S4096_S1x4096)
    0x00000000#32 reduces_S1x4096_S1 (fun b => by fin_cases b; rfl) (.inl rfl) rfl _).trans ?_
  unfold shapeCast total
  rw [Equiv.sum_comp (Shape.reshapeEquiv shapeCasts_S4096_S1x4096) (prod x w s)]
  exact Finset.sum_congr rfl fun j _ => prod_apply x w s j

end Cert.KernelIdeal.Payload

end
-- ==== Proof.KernelRun.lean ====
/-
  The kernel program's run, read: what its scalar result holds at the end.

  The program slices the last column out of the weight matrix and out of the coefficient tensor (summing the latter over
  its three entries), launches the kernel once on the input vector and those two columns — the grid has a single point
  and every window's block is its whole array — and finally re-reads the kernel's 1 × 1 output as a scalar.  So the
  scalar is the body's arithmetic applied to the input vector, the weight column and the summed coefficient column.
-/
import proofs.«104511_j27101243638027_2_alg».proof.Proof.Gen.KernelIdeal.Frame
import proofs.«104511_j27101243638027_2_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Run

open Cert.KernelIdeal Cert.KernelIdeal.Gen

variable {F : FTy → Type} [FloatOps F]
variable (m : (ℓ : Loc nD τ sig) → Buf (Elt F) ℓ) (ρ : Dev nD → PrngReg)

/-- The zero offsets of a rank-one and of a rank-two access, as functions. -/
theorem hz1 : (![0] : Fin 1 → Nat) = fun _ => 0 := funext fun a => by fin_cases a; rfl
theorem hz2 : (![0, 0] : Fin 2 → Nat) = fun _ => 0 := funext fun a => by fin_cases a <;> rfl

/-- The body's one store covers the 1 × 1 block, and its three loads read whole blocks: the block it leaves is its
    arithmetic applied to the three input blocks. -/
theorem out_eq (x0 x1 x2 : Vec F S4096 .f32) : out0_3 x0 x1 x2 = k0_pay1 x0 x1 x2 := by
  unfold out0_3
  rw [View.canon_unit_zero hz2]
  simp only [View.ld_unit_zero (S := S4096) hz1]

/-- The grid has one point, and there each input window's block is its whole array. -/
theorem iblk0 (c : Dev nD) (t : Fin cfg0.N) : iblk m c 0 t = V m c main_arg0 := by
  unfold iblk
  have hz' : (fun a => win0_0.index t a * main_arg0.ty.shape.size a) = fun _ => 0 := funext fun a => by fin_cases a; rfl
  exact Memref.read_access_unit_zero (Elt F) main_arg0 hz' (fun a => by rw [congrFun hz' a]; simp) (V m c main_arg0)
/-- The same for the weight column's window, -/
theorem iblk1 (c : Dev nD) (t : Fin cfg0.N) : iblk m c 1 t = V m c main_v1 := by
  unfold iblk
  have hz' : (fun a => win0_1.index t a * main_v1.ty.shape.size a) = fun _ => 0 := funext fun a => by fin_cases a; rfl
  exact Memref.read_access_unit_zero (Elt F) main_v1 hz' (fun a => by rw [congrFun hz' a]; simp) (V m c main_v1)
/-- and for the summed coefficient column's. -/
theorem iblk2 (c : Dev nD) (t : Fin cfg0.N) : iblk m c 2 t = V m c main_v4 := by
  unfold iblk
  have hz' : (fun a => win0_2.index t a * main_v4.ty.shape.size a) = fun _ => 0 := funext fun a => by fin_cases a; rfl
  exact Memref.read_access_unit_zero (Elt F) main_v4 hz' (fun a => by rw [congrFun hz' a]; simp) (V m c main_v4)

/-- What the result window's array holds when the region is left. -/
abbrev block (c : Dev nD) : Buf (Elt F) ((c : Thread nD τ).loc main_v5) :=
  k0_pay1 (V m c main_arg0) (V m c main_v1) (V m c main_v4)

/-- What the one grid point writes back is the whole of that block: the output window's block index is (0, 0). -/
theorem flushed_eq (c : Dev nD) (t : Fin cfg0.N) (hf : (cfg0.win 3).flush t = true) :
    (dats m 0 c).flushed 3 t = ((cfg0.win 3).blk t).view.read (Elt F) (block m c) := by
  show (cfg0.win 3).cut (grid0.coords t) ((dats m 0 c).after 3 t) = _
  rw [after0_3, out_eq, iblk0, iblk1, iblk2]
  have hz' : (fun a => win0_3.index t a * main_v5.ty.shape.size a) = fun _ => 0 := funext fun a => by fin_cases a <;> rfl
  exact (Memref.read_access_unit_zero (Elt F) main_v5 hz' (fun a => by rw [congrFun hz' a]; simp) (block m c)).symm

/-- The one write-back covers the 1 × 1 array, so the array ends holding the block. -/
theorem final (c : Dev nD) : (dats m 0 c).arrAt 3 cfg0.N = block m c :=
  (dats m 0 c).arrAt_eq_of_cover 3 (block m c) (flushed_eq m c) fun i =>
    ⟨t0_0, flush0_3 t0_0, by
      show i ∈ ((View.whole main_v5).slice (win0_3.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 1 from by decide +kernel]; omega⟩

/-- The last column of the weight matrix, as a vector: the slice [0:4096, 8192:8193] with its unit axis dropped. -/
def colW (a1 : (⟨S4096x8193, .f32⟩ : BufTy).Contents (Elt F)) : (⟨S4096, .f32⟩ : BufTy).Contents (Elt F) :=
  shapeCast S4096 (extractStridedSlice S4096x1 ![0, 8192] a1 slices_S4096x8193_S4096x1_0_8192) shapeCasts_S4096x1_S4096

/-- The last column of the coefficient tensor summed over its three entries, from zero. -/
def colS (a2 : (⟨S4096x8193x3, .f32⟩ : BufTy).Contents (Elt F)) : (⟨S4096, .f32⟩ : BufTy).Contents (Elt F) :=
  Host.reduceAdd (shapeCast S4096x3 (extractStridedSlice S4096x1x3 ![0, 8192, 0] a2 slices_S4096x8193x3_S4096x1x3_0_8192_0)
    shapeCasts_S4096x1x3_S4096x3) (constant (F := F) S_ .f32 0x00000000#32) reducesTo_S4096x3_S4096_d1 h_S_

/-- The host lines before the region leave the weight column in the second window's array, -/
theorem V_v1 (c : Dev nD) : V m c main_v1 = colW (m ((c : Thread nD τ).loc main_arg1)) := by
  show StableHlo.after hostOps0 (fun b => m (c, b)) (Proc.devRef .tc main_v1) = _
  after_results
  rfl

/-- and the summed coefficient column in the third window's array. -/
theorem V_v4 (c : Dev nD) : V m c main_v4 = colS (m ((c : Thread nD τ).loc main_arg2)) := by
  show StableHlo.after hostOps0 (fun b => m (c, b)) (Proc.devRef .tc main_v4) = _
  after_results
  rfl

/-- The host line after the region re-reads the 1 × 1 result array as a scalar. -/
theorem tail_eq (c : Dev nD) :
    Pipeline.afterTail₀ cfgs (dats m) 0 (V0 m) [hostOps1] c main_v6 = shapeCast S_ (block m c) shapeCasts_S1x1_S_ := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5)
      = block m c := (Pipeline.withArrays_arr spec0 launch0.win.arr_inj c _ _ 3).trans (final m c)
  rw [e]
  rfl

/-- THE RUN, READ.  Every weakly fair execution of the kernel program ends with the scalar result buffer at the 1 × 1
    block the body computes from the input vector, the weight column and the summed coefficient column — read as a
    scalar — and with the three arguments as launched. -/
theorem run : θ_run defs (onTc (τ := τ) (main (F := F))) ⟨m, fun _ => 0, ρ⟩ fun r => ∀ c : Dev nD,
      r.2.mem ((c.tc : Thread nD τ).loc main_v6)
        = shapeCast S_ (k0_pay1 (m ((c.tc : Thread nD τ).loc main_arg0)) (colW (m ((c.tc : Thread nD τ).loc main_arg1)))
            (colS (m ((c.tc : Thread nD τ).loc main_arg2)))) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans
        ((tail_eq m c).trans (by unfold block; rw [V_main_arg0, V_v1, V_v4])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefValue.lean ====
/-
  The reference's result, read.

  The reference takes sin x, the last column of the coefficient tensor summed over its three entries, the last column
  of the weight matrix, the SiLU of x written out as  x · (1 / (1 + e^(-x))),  forms  w · (x · σ(x) + sin x · s)  entry by
  entry and sums the 4096 entries from zero.  Entry by entry that product is the summand of `KanSum.total`, so its
  result is `KanSum.total x w s` with `w` and `s` the two column stages.
-/
import proofs.«104511_j27101243638027_2_alg».proof.Proof.Gen.ReferenceIdeal.Read
import proofs.«104511_j27101243638027_2_alg».proof.Proof.KanSum

noncomputable section

namespace Cert.ReferenceIdeal.RefValue

open Idealize.ShloMosaic Cert.ReferenceIdeal Cert.ReferenceIdeal.Gen Cert.ReferenceIdeal.Read Cert.KanSum

/-- Entry `j` of the product the reference sums is the summand of `total` at `j`: the host's sine and the host's
    written-out logistic are the functions the summand names. -/
theorem v9_apply (x0 : (⟨S4096, .f32⟩ : BufTy).Contents (Elt Ideal)) (x1 : (⟨S4096x8193, .f32⟩ : BufTy).Contents (Elt Ideal))
    (x2 : (⟨S4096x8193x3, .f32⟩ : BufTy).Contents (Elt Ideal)) (j : S4096.Idx) :
    val_main_v9 (F := Ideal) x0 x1 x2 j
      = term (x0 j) (val_main_v6 (F := Ideal) x1 j) (val_main_v3 (F := Ideal) x2 j) := by
  rw [val_main_v9_apply, val_main_v8_apply, val_main_v7_apply, val_main_v4_apply, val_main_v0_apply,
    val_main_call0_v5_apply, val_main_call0_v4_apply, val_main_call0_cst_0_apply, val_main_call0_v3_apply,
    val_main_call0_v2_apply, val_main_call0_cst_apply, val_main_call0_v1_apply, val_main_call0_v0_apply]
  simp only [Ideal.mulf_def, Ideal.addf_def, Ideal.hostDivf_def, Ideal.hostUnary_exp_def, Ideal.hostUnary_sin_def,
    Ideal.hostNegf_def, Ideal.negf_def, Ideal.ofBits_def, div_one_add_exp_neg]
  rfl

/-- The reference's result at its one index is the weighted sum over all 4096 entries. -/
theorem result_eq (x0 : (⟨S4096, .f32⟩ : BufTy).Contents (Elt Ideal)) (x1 : (⟨S4096x8193, .f32⟩ : BufTy).Contents (Elt Ideal))
    (x2 : (⟨S4096x8193x3, .f32⟩ : BufTy).Contents (Elt Ideal)) (i : S_.Idx) :
    val_main_v10 (F := Ideal) x0 x1 x2 i = total x0 (val_main_v6 (F := Ideal) x1) (val_main_v3 (F := Ideal) x2) := by
  rw [val_main_v10_apply, val_main_cst_0_apply]
  show Ideal.ofBits .f32 0x00000000#32 + _ = _
  rw [Ideal.ofBits_zero_f32, zero_add]
  exact Finset.sum_congr rfl fun j _ => v9_apply x0 x1 x2 j

end Cert.ReferenceIdeal.RefValue

end
-- ==== Proof.lean ====
/-
  The certificate's five claims for the KAN layer's degenerate forward pass,

      out = Σ_j  W[j, last] · ( silu(x[j]) + sin(x[j]) · Σ_g C[j, last, g] ),      silu(a) = a · σ(a),  σ(a) = 1 / (1 + e^(-a)).

  Both idealized programs compute this number over the extended reals.  The kernel program slices the two last columns
  on the host, and its kernel body forms the 4096 summands with the logistic function as one operation and adds the
  lanes up; the reference spells the logistic function out (negate, exponential, add one, divide one by it) and sums
  with a host reduction.  The two spellings of σ are one function on every extended real, the summands are built in
  the same order on both sides, and a lane sum and a host sum from zero are both the plain sum over the 4096 entries,
  so no algebraic law beyond  0 + a = a  is used and the finiteness of the inputs is never needed.

  `KanSum` states the number; `KernelPayload` and `KernelRun` read the kernel program's result as it; `RefValue` reads
  the reference's result as it.  The three frames are the generated ones (the reference's is its generated run with the
  result dropped), and the idealization rewrote nothing, so its statement is `True`.
-/
import proofs.«104511_j27101243638027_2_alg».proof.Defs
import proofs.«104511_j27101243638027_2_alg».proof.Proof.Gen.Kernel
import proofs.«104511_j27101243638027_2_alg».proof.Proof.Gen.Kernel.Skeleton
import proofs.«104511_j27101243638027_2_alg».proof.Proof.Gen.Kernel.Launch
import proofs.«104511_j27101243638027_2_alg».proof.Proof.Gen.Kernel.Points
import proofs.«104511_j27101243638027_2_alg».proof.Proof.Gen.Kernel.Frame
import proofs.«104511_j27101243638027_2_alg».proof.Proof.Gen.KernelIdeal
import proofs.«104511_j27101243638027_2_alg».proof.Proof.Gen.KernelIdeal.Skeleton
import proofs.«104511_j27101243638027_2_alg».proof.Proof.Gen.KernelIdeal.Launch
import proofs.«104511_j27101243638027_2_alg».proof.Proof.Gen.KernelIdeal.Points
import proofs.«104511_j27101243638027_2_alg».proof.Proof.Gen.KernelIdeal.Frame
import proofs.«104511_j27101243638027_2_alg».proof.Proof.Gen.ReferenceIdeal
import proofs.«104511_j27101243638027_2_alg».proof.Proof.Gen.Pre_finite_inputs
import proofs.«104511_j27101243638027_2_alg».proof.Proof.Gen.ReferenceIdeal.Run
import proofs.«104511_j27101243638027_2_alg».proof.Proof.Gen.ReferenceIdeal.Read
import proofs.«104511_j27101243638027_2_alg».proof.Proof.KanSum
import proofs.«104511_j27101243638027_2_alg».proof.Proof.KernelPayload
import proofs.«104511_j27101243638027_2_alg».proof.Proof.KernelRun
import proofs.«104511_j27101243638027_2_alg».proof.Proof.RefValue
import Idealize.ShloMosaic.Adequacy
import Idealize.ShloMosaic.Init

noncomputable section

namespace Cert.Proof

open Idealize.ShloMosaic Idealize.ShloMosaic.TcCoe Idealize.SL.Sem

/-- The three frames: the two kernel programs' generated ones, and the reference's generated run with its result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with their scalar result at the weighted sum
    `Σ_j w j · (x j · σ(x j) + sin(x j) · s j)` of the input vector `x`, the weight matrix's last column `w` and the
    coefficient tensor's last column summed over its three entries `s`. -/
theorem algebraic : Cert.algebraic_KernelIdeal_ReferenceIdeal := by
  intro m ρ m' ρ' _ hagree
  refine ⟨fun c _ => Cert.KanSum.total (m ((c.tc : Thread Cert.KernelIdeal.nD Cert.KernelIdeal.τ).loc Cert.KernelIdeal.main_arg0))
      (Cert.KernelIdeal.Run.colW (m ((c.tc : Thread Cert.KernelIdeal.nD Cert.KernelIdeal.τ).loc Cert.KernelIdeal.main_arg1)))
      (Cert.KernelIdeal.Run.colS (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩)
      (Cert.KernelIdeal.Run.run (F := Ideal) m ρ)
    funext i
    exact Cert.KernelIdeal.Payload.pay_apply _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq]
    funext i
    rw [Cert.ReferenceIdeal.RefValue.result_eq, (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
